-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.WholeRun.lean ====
/-
  The kernel program's run, with its result: every weakly fair execution of @main — the first region, the host
  operations between the regions, the second region — terminates without a fault, and in the final state every buffer
  that outlives the regions holds what the last boundary's valuation gives it: the arrays of the second region at what
  its write-backs leave, every other buffer at what the host operations left, the arguments at their launch contents.
  The result array is one of those buffers, so the run names it.
-/
import proofs.«129370_j39290360824041_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run with the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)
    (run_all m ρ)

end Cert.KernelIdeal.WholeRun

end
-- ==== Proof.BodyValues.lean ====
/-
  The two kernel bodies, read at one index of their output block, over the extended reals.

  The first body multiplies a block of 5000 rows of `x` by the whole of `w`: rounding the operands to bf16 is the
  identity on extended reals, and a matrix product into a zero accumulator is the plain sum over the contracted axis,
  so entry `(p, q)` of the block is `∑ k, x (p, k) * w (k, q)`.

  The second body adds to a block of 5000 rows the one row `[1, 128]` holding the bias: entry `(p, q)` is the block's
  entry plus the bias at `(0, q)`.
-/
import proofs.«129370_j39290360824041_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx

/-! ## The block product's operand indices, coordinate by coordinate

At output index `j` and contraction index `r` the left operand is read in row `j 0` and the column `r` names, the
right operand in the row `r` names and column `j 1`. -/

theorem lhs_row (j : S5000x128.Idx) (r : dot_S5000x256_S256x128_S5000x128_1_0_0_1_n_n.contr.Idx) :
    (dot_S5000x256_S256x128_S5000x128_1_0_0_1_n_n.lhsIdx j r 0).val = (j 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_col (j : S5000x128.Idx) (r : dot_S5000x256_S256x128_S5000x128_1_0_0_1_n_n.contr.Idx) :
    (dot_S5000x256_S256x128_S5000x128_1_0_0_1_n_n.lhsIdx j r 1).val = (r ⟨0, by decide⟩).val :=
  dot_S5000x256_S256x128_S5000x128_1_0_0_1_n_n.lhsIdx_val_of_single rfl j r
theorem rhs_row (j : S5000x128.Idx) (r : dot_S5000x256_S256x128_S5000x128_1_0_0_1_n_n.contr.Idx) :
    (dot_S5000x256_S256x128_S5000x128_1_0_0_1_n_n.rhsIdx j r 0).val = (r ⟨0, by decide⟩).val :=
  dot_S5000x256_S256x128_S5000x128_1_0_0_1_n_n.rhsIdx_val_of_single rfl j r
theorem rhs_col (j : S5000x128.Idx) (r : dot_S5000x256_S256x128_S5000x128_1_0_0_1_n_n.contr.Idx) :
    (dot_S5000x256_S256x128_S5000x128_1_0_0_1_n_n.rhsIdx j r 1).val = (j 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- Entry `(p, q)` of the product block: the sum over the 256 contracted positions of `x (p, k) * w (k, q)`. -/
theorem product_block_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x128_S5000x128_1_0_0_1_n_n.rhsIdx (ix2 p q)
      ((contrEquiv1 dot_S5000x256_S256x128_S5000x128_1_0_0_1_n_n 256 rfl rfl).symm k) = ix2 k q := funext fun a => Fin.ext (by
    match a with
    | ⟨0, _⟩ => exact (rhs_row _ _).trans hk
    | ⟨1, _⟩ => exact rhs_col _ _)
  rw [el, er]
  rfl

/-- Entry `(p, q)` of the biased block: the block's entry plus the bias row's entry in column `q`. -/
theorem biased_block_apply (y0 : Vec Ideal S5000x128 .f32) (y1 : Vec Ideal S1x128 .f32) (p : Fin 5000) (q : Fin 128) :
    k1_pay1 (F := Ideal) y0 y1 (ix2 p q) = y0 (ix2 p q) + y1 (ix2 (0 : Fin 1) q) := by
  unfold k1_pay1
  rw [addf_apply, shapeCast_self, shapeCast_self]
  exact congrArg (y0 (ix2 p q) + ·) (broadcastTo_1b_ab_apply y1 broadcasts_S1x128_S5000x128 p q)

end Cert.KernelIdeal.BodyValues

end
-- ==== Proof.RegionValues.lean ====
/-
  What each of the two kernel regions leaves in its output array, as ONE function of the arrays the region finds on
  entry, over the extended reals.

  Both regions walk a grid of 20 points; point `t` works on rows `5000 * t … 5000 * t + 4999`. In the first region
  point `t` writes the product of those rows of `x` with the whole of `w`, so the 20 blocks together are the whole
  product `x · w`: entry `(r, q)` is `∑ k, x (r, k) * w (k, q)`. In the second region point `t` writes those rows of
  its first operand plus the bias row, so the array ends at `a (r, q) + b (0, q)`. Row `r` lies in the block of point
  `r / 5000`, and every point writes its block back, so the blocks cover the array.
-/
import proofs.«129370_j39290360824041_1_alg».proof.Proof.Gen.KernelIdeal.Frame
import proofs.«129370_j39290360824041_1_alg».proof.Proof.BodyValues
import Idealize.ShloMosaic.Lib.Pipeline.Value
import Idealize.ShloMosaic.Lib.ValueIdx

set_option maxRecDepth 16384

noncomputable section

open scoped BigOperators

namespace Cert.KernelIdeal.RegionValues

open Cert.KernelIdeal Cert.KernelIdeal.Gen Idealize.ShloMosaic Idealize.ShloMosaic.TcCoe Idealize.SL.Sem
open Idealize.ShloMosaic.ValueIdx
open Idealize.ShloMosaic.Pipeline (Dat)

/-- The whole product: entry `(r, q)` is the sum over the 256 shared positions of `x (r, k) * w (k, q)`. -/
def product (x : S100000x256.Idx → Elt Ideal .f32) (w : S256x128.Idx → Elt Ideal .f32) : S100000x128.Idx → Elt Ideal .f32 :=
  fun i => ∑ k : Fin 256, x (ix2 (i 0 : Fin 100000) k) * w (ix2 k (i 1 : Fin 128))

/-- A row added to every row: entry `(r, q)` is `a (r, q) + b (0, q)`. -/
def biased (a : S100000x128.Idx → Elt Ideal .f32) (b : S1x128.Idx → Elt Ideal .f32) : S100000x128.Idx → Elt Ideal .f32 :=
  fun i => a i + b (ix2 (0 : Fin 1) (i 1 : Fin 128))

theorem zero_offsets : (![0, 0] : Fin 2 → Nat) = fun _ => 0 := funext fun a => by fin_cases a <;> rfl

variable (V : (c : Dev nD) → (b : Ref sig .tc) → Buf (Elt Ideal) ((c : Thread nD τ).loc b))

/-! ## The first region: the product, block by block -/

/-- Where point `t`'s blocks sit: the rows of `x` and of the output move with `t`, `w` is always read whole. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed0_eq (c : Dev nD) (t : Fin cfg0.N) :
    (dat0 V c).flushed 2 t = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨e00, e01, e10, e11, e20, e21⟩ := block_indices0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = product (V c main_arg0) (V c main_arg4) (((cfg0.win 2).blk t).view.emb (ix2 p q))
  refine (BodyValues.product_block_apply (iblk0 V c 0 t) (iblk0 V c 1 t) p q).trans ?_
  unfold product
  refine Finset.sum_congr rfl fun k _ => ?_
  have hx : iblk0 V c 0 t (ix2 p k)
      = V c main_arg0 (ix2 ((((cfg0.win 2).blk t).view.emb (ix2 p q)) 0 : Fin 100000) k) := by
    show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 256 + 1 * k.val = k.val
      omega
  have hw : iblk0 V c 1 t (ix2 k q)
      = V c main_arg4 (ix2 k ((((cfg0.win 2).blk t).view.emb (ix2 p q)) 1 : Fin 128)) := by
    show V c main_arg4 (((cfg0.win 1).blk t).view.emb (ix2 k q)) = _
    refine congrArg (V c main_arg4) (funext fun a => Fin.ext ?_)
    match a with
    | ⟨0, _⟩ =>
      show win0_1.index t (0 : Fin 2) * 256 + 1 * k.val = k.val
      omega
    | ⟨1, _⟩ =>
      show win0_1.index t (1 : Fin 2) * 128 + 1 * q.val = win0_2.index t (1 : Fin 2) * 128 + 1 * q.val
      omega
  rw [hx, hw]

/-- An index of the array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` lies in the block of point `r / 5000`, and every point writes back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21⟩ := block_indices0 t
  have ht : t.val = (i 0).val / 5000 := rfl
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the first region its output array is the whole product of the arrays it found. -/
theorem final0 (c : Dev nD) : (dat0 V c).arrAt 2 cfg0.N = product (V c main_arg0) (V c main_arg4) :=
  (dat0 V c).arrAt_eq_of_cover 2 (product (V c main_arg0) (V c main_arg4)) (fun t _ => flushed0_eq V c t) cover0

/-! ## The second region: the bias row added, block by block -/

/-- Where point `t`'s blocks sit: the rows of the operand and of the output move with `t`, the bias row is read whole. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the operand array with the bias row added. -/
theorem flushed1_eq (c : Dev nD) (t : Fin cfg1.N) :
    (dat1 V c).flushed 2 t = ((cfg1.win 2).blk t).view.read (Elt Ideal) (biased (V c main_v13) (V c main_v14)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e00, e01, e10, e11, e20, e21⟩ := block_indices1 t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = biased (V c main_v13) (V c main_v14) (((cfg1.win 2).blk t).view.emb (ix2 p q))
  refine (BodyValues.biased_block_apply (iblk1 V c 0 t) (iblk1 V c 1 t) p q).trans ?_
  unfold biased
  have ha : iblk1 V c 0 t (ix2 p q) = V c main_v13 (((cfg1.win 2).blk t).view.emb (ix2 p q)) := by
    show V c main_v13 (((cfg1.win 0).blk t).view.emb (ix2 p q)) = _
    refine congrArg (V c main_v13) (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * q.val = win1_2.index t (1 : Fin 2) * 128 + 1 * q.val
      omega
  have hb : iblk1 V c 1 t (ix2 (0 : Fin 1) q)
      = V c main_v14 (ix2 (0 : Fin 1) ((((cfg1.win 2).blk t).view.emb (ix2 p q)) 1 : Fin 128)) := by
    show V c main_v14 (((cfg1.win 1).blk t).view.emb (ix2 (0 : Fin 1) q)) = _
    refine congrArg (V c main_v14) (funext fun a => Fin.ext ?_)
    match a with
    | ⟨0, _⟩ =>
      show win1_1.index t (0 : Fin 2) * 1 + 1 * 0 = 0
      omega
    | ⟨1, _⟩ =>
      show win1_1.index t (1 : Fin 2) * 128 + 1 * q.val = win1_2.index t (1 : Fin 2) * 128 + 1 * q.val
      omega
  rw [ha, hb]

/-- An index of the array is in point `t`'s block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- Row `r` lies in the block of point `r / 5000`, and every point writes back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21⟩ := block_indices1 t
  have ht : t.val = (i 0).val / 5000 := rfl
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After the second region its output array is the operand array it found with the bias row it found added. -/
theorem final1 (c : Dev nD) : (dat1 V c).arrAt 2 cfg1.N = biased (V c main_v13) (V c main_v14) :=
  (dat1 V c).arrAt_eq_of_cover 2 (biased (V c main_v13) (V c main_v14)) (fun t _ => flushed1_eq V c t) cover1

end Cert.KernelIdeal.RegionValues

end
-- ==== Proof.KernelValue.lean ====
/-
  The kernel program's result array as ONE term of its six arguments, over the extended reals.

  Between the two regions the host gathers rows of the first region's output at the edges' sources, scales each
  gathered row by its edge weight, and adds the scaled rows into the rows the edges' destinations name; it also
  reshapes the bias to one row. Those operations are carried here as one function `aggregate` of the first region's
  output and the three edge arrays, never opened: the reference applies the same operations to its own product.
  No operation between the regions writes an argument, and the first region writes only its output, so the second
  region finds the aggregate of the whole product `x · w` and the bias row, and ends at their sum.
-/
import proofs.«129370_j39290360824041_1_alg».proof.Proof.Gen.KernelIdeal.Frame
import proofs.«129370_j39290360824041_1_alg».proof.Proof.RegionValues
import Idealize.ShloMosaic.Lib.StableHlo.Run

set_option maxRecDepth 16384

noncomputable section

namespace Cert.KernelIdeal.KernelValue

open Cert.KernelIdeal Cert.KernelIdeal.Gen Cert.KernelIdeal.RegionValues
open Idealize.ShloMosaic Idealize.ShloMosaic.TcCoe Idealize.SL.Sem Idealize.ShloMosaic.StableHlo

/-- The host operations between the regions as one function: the rows of `h` at the (wrapped) source indices, each
    scaled by its edge weight, added into a zero array at the destination indices. -/
def aggregate (h : (⟨S100000x128, .f32⟩ : BufTy).Contents (Elt Ideal))
    (src dst : (⟨S1600000, .i32⟩ : BufTy).Contents (Elt Ideal)) (ew : (⟨S1600000, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The bias as one row. -/
def biasRow (b : (⟨S128, .f32⟩ : BufTy).Contents (Elt Ideal)) : (⟨S1x128, .f32⟩ : BufTy).Contents (Elt Ideal) :=
  fun i => shapeCast S1x128 b shapeCasts_S128_S1x128 i

variable (m : (ℓ : Loc nD τ sig) → Buf (Elt Ideal) ℓ) (ρ : Dev nD → PrngReg)

/-! ## The buffers after the first region -/

theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
theorem exit0_arg3 (c : Dev nD) : W1 m ρ c (Proc.devRef .tc main_arg3) = m ((c : Thread nD τ).loc main_arg3) :=
  W1_of_ne m ρ c main_arg3 (by decide)
theorem exit0_arg5 (c : Dev nD) : W1 m ρ c (Proc.devRef .tc main_arg5) = m ((c : Thread nD τ).loc main_arg5) :=
  W1_of_ne m ρ c main_arg5 (by decide)
/-- The first region's output array is the whole product of `x` and `w` as launched. -/
theorem exit0_product (c : Dev nD) : W1 m ρ c (Proc.devRef .tc main_v0)
    = product (m ((c : Thread nD τ).loc main_arg0)) (m ((c : Thread nD τ).loc main_arg4)) :=
  (W1_arr m ρ c 2).trans (final0 (V0 m ρ) c)

/-! ## The buffers the second region finds -/

theorem entry1_aggregate (c : Dev nD) : V2 m ρ c main_v13
    = aggregate (W1 m ρ c (Proc.devRef .tc main_v0)) (W1 m ρ c (Proc.devRef .tc main_arg1))
        (W1 m ρ c (Proc.devRef .tc main_arg2)) (W1 m ρ c (Proc.devRef .tc main_arg3)) := by
  show StableHlo.after hostOps1 (W1 m ρ c) (Proc.devRef .tc main_v13) = _
  unfold aggregate
  after_results <;> rfl

theorem entry1_biasRow (c : Dev nD) : V2 m ρ c main_v14 = biasRow (W1 m ρ c (Proc.devRef .tc main_arg5)) := by
  show StableHlo.after hostOps1 (W1 m ρ c) (Proc.devRef .tc main_v14) = _
  unfold biasRow
  after_results <;> rfl

/-! ## The result -/

/-- The kernel program's result: the aggregate of the whole product with the bias row added. -/
def result (x : (⟨S100000x256, .f32⟩ : BufTy).Contents (Elt Ideal)) (src dst : (⟨S1600000, .i32⟩ : BufTy).Contents (Elt Ideal))
    (ew : (⟨S1600000, .f32⟩ : BufTy).Contents (Elt Ideal)) (w : (⟨S256x128, .f32⟩ : BufTy).Contents (Elt Ideal))
    (b : (⟨S128, .f32⟩ : BufTy).Contents (Elt Ideal)) : (⟨S100000x128, .f32⟩ : BufTy).Contents (Elt Ideal) :=
  biased (aggregate (product x w) src dst ew) (biasRow b)

/-- The last boundary's contents of the result array are `result` of the arguments as launched. -/
theorem result_eq (c : Dev nD) : W3 m ρ c (Proc.devRef .tc main_v15)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W3_arr m ρ c 2).trans ((final1 (V2 m ρ) c).trans ?_)
  rw [entry1_aggregate, entry1_biasRow, exit0_product, exit0_arg1, exit0_arg2, exit0_arg3, exit0_arg5]
  rfl

end Cert.KernelIdeal.KernelValue

end
-- ==== Proof.Bridge.lean ====
/-
  The kernel program and the reference compute one function of the six arguments, over the extended reals.

  The reference multiplies `x` by `w` in one host product, whose entry `(r, q)` is `∑ k, x (r, k) * w (k, q)`: the
  same sum the kernel's twenty blocks make up. Both programs then apply the same gather, scaling and scatter-add to that
  product and the edge arrays, so those results agree once the products do. Last, the reference adds the bias
  broadcast first to one row and then over all rows, the kernel adds the bias reshaped to one row inside its second
  region: entry `(r, q)` of either is the aggregate's entry plus `b q`.
-/
import proofs.«129370_j39290360824041_1_alg».proof.Proof.KernelValue
import proofs.«129370_j39290360824041_1_alg».proof.Proof.Gen.ReferenceIdeal.Read
import Idealize.ShloMosaic.Lib.ValueIdx
import Idealize.ShloMosaic.Lib.ValueLayout

set_option maxRecDepth 16384

noncomputable section

open scoped BigOperators

namespace Cert.Bridge

open Idealize.ShloMosaic Idealize.ShloMosaic.ValueIdx
open Cert.KernelIdeal.KernelValue Cert.KernelIdeal.RegionValues
open Cert.ReferenceIdeal Cert.ReferenceIdeal.Read

variable (x : (⟨S100000x256, .f32⟩ : BufTy).Contents (Elt Ideal)) (src dst : (⟨S1600000, .i32⟩ : BufTy).Contents (Elt Ideal))
  (ew : (⟨S1600000, .f32⟩ : BufTy).Contents (Elt Ideal)) (w : (⟨S256x128, .f32⟩ : BufTy).Contents (Elt Ideal))
  (b : (⟨S128, .f32⟩ : BufTy).Contents (Elt Ideal))

/-- The kernel's whole product is the reference's host product. -/
theorem product_eq : product x w = val_main_v0 (F := Ideal) x w := by
  funext i
  rw [val_main_v0_apply]
  unfold product
  refine Finset.sum_congr rfl fun k _ => ?_
  have el : (ix2 (i 0 : Fin 100000) k : S100000x256.Idx) = lidx_main_v0 i k := funext fun a => Fin.ext (by
    match a with
    | ⟨0, _⟩ => rfl
    | ⟨1, _⟩ => rfl)
  have er : (ix2 k (i 1 : Fin 128) : S256x128.Idx) = ridx_main_v0 i k := funext fun a => Fin.ext (by
    match a with
    | ⟨0, _⟩ => rfl
    | ⟨1, _⟩ => rfl)
  rw [el, er]

/-- The same host operations applied to the same product and edge arrays: the reference's scatter-add stage. -/
theorem aggregate_eq : aggregate (val_main_v0 (F := Ideal) x w) src dst ew = val_main_v13 (F := Ideal) x src dst ew w := rfl

/-- The kernel's bias row, in column `q`, is the bias at `q`. -/
theorem biasRow_apply (q : Fin 128) : biasRow b (ix2 (0 : Fin 1) q) = b (ix1 q) :=
  shapeCast_a_1a_apply b _ (0 : Fin 1) q

/-- The reference's bias broadcast over all rows, at `(r, q)`, is the bias at `q`. -/
theorem ref_bias_apply (i : S100000x128.Idx) : val_main_v15 (F := Ideal) b i = b (ix1 (i 1 : Fin 128)) := by
  rw [val_main_v15_apply, val_main_v14_apply]
  exact congrArg b (funext fun a => Fin.ext (by
    match a with
    | ⟨0, _⟩ => rfl))

/-- The kernel program's result term is the reference's. -/
theorem result_eq_reference : result x src dst ew w b = val_main_v16 (F := Ideal) x src dst ew w b := by
  funext i
  rw [val_main_v16_apply, ref_bias_apply]
  unfold result biased
  rw [product_eq, aggregate_eq]
  exact congrArg (fun z => val_main_v13 (F := Ideal) x src dst ew w i + z) (biasRow_apply b (i 1))

end Cert.Bridge

end
-- ==== Proof.lean ====
/-
  The certificate of a graph-convolution layer: `out = segment_sum((x · w)[src] * weight, dst) + b`.

  The kernel program computes `x · w` in a first region, twenty blocks of 5000 rows, each block a matrix product into a
  zero accumulator; gathers, scales and scatter-adds on the host; and adds the bias row in a second region, again in
  twenty blocks. The reference computes `x · w` in one host product, applies the same gather, scaling and
  scatter-add, and adds the bias broadcast over the rows. Over the extended reals the twenty blocks are the whole
  product (a matrix product is the plain sum over the contracted axis, and rounding the operands on the way in is
  the identity), the middle operations are the same function of equal operands, and both bias additions add `b q`
  to entry `(r, q)`. No finiteness of the inputs is used: nothing is distributed, cancelled or moved across a sum.

  The three programs' runs terminate without a fault with their arguments unchanged; the idealization rewrote nothing,
  so it preserves the kernel trivially; and the two idealized programs end with equal results.
-/
import proofs.«129370_j39290360824041_1_alg».proof.Defs
import proofs.«129370_j39290360824041_1_alg».proof.Proof.Gen.Kernel
import proofs.«129370_j39290360824041_1_alg».proof.Proof.Gen.Kernel.Skeleton
import proofs.«129370_j39290360824041_1_alg».proof.Proof.Gen.Kernel.Launch
import proofs.«129370_j39290360824041_1_alg».proof.Proof.Gen.Kernel.Points
import proofs.«129370_j39290360824041_1_alg».proof.Proof.Gen.Kernel.Frame
import proofs.«129370_j39290360824041_1_alg».proof.Proof.Gen.KernelIdeal
import proofs.«129370_j39290360824041_1_alg».proof.Proof.Gen.KernelIdeal.Skeleton
import proofs.«129370_j39290360824041_1_alg».proof.Proof.Gen.KernelIdeal.Launch
import proofs.«129370_j39290360824041_1_alg».proof.Proof.Gen.KernelIdeal.Points
import proofs.«129370_j39290360824041_1_alg».proof.Proof.Gen.KernelIdeal.Frame
import proofs.«129370_j39290360824041_1_alg».proof.Proof.Gen.ReferenceIdeal
import proofs.«129370_j39290360824041_1_alg».proof.Proof.Gen.ReferenceIdeal.Run
import proofs.«129370_j39290360824041_1_alg».proof.Proof.Gen.ReferenceIdeal.Read
import proofs.«129370_j39290360824041_1_alg».proof.Proof.Gen.Pre_finite_inputs
import proofs.«129370_j39290360824041_1_alg».proof.Proof.WholeRun
import proofs.«129370_j39290360824041_1_alg».proof.Proof.KernelValue
import proofs.«129370_j39290360824041_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, and its arguments end unchanged. -/
theorem frame_kernel [Cert.Kernel.Facts] [Cert.Pre_finite_inputs.Facts] : Cert.frame_Kernel :=
  fun m ρ _ => Cert.Kernel.Gen.frame m ρ

/-- The idealized kernel program runs, and its arguments end unchanged. -/
theorem frame_kernelIdeal [Cert.KernelIdeal.Facts] [Cert.Pre_finite_inputs.Facts] : Cert.frame_KernelIdeal :=
  fun m ρ _ => Cert.KernelIdeal.Gen.frame m ρ

/-- The reference runs, and its arguments end unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories agreeing on the arguments both idealized programs end at one result: the aggregate of `x · w` with
    the bias added to every row. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.WholeRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1, (hagree c).2.1, (hagree c).2.2.1, (hagree c).2.2.2.1,
      (hagree c).2.2.2.2.1, (hagree c).2.2.2.2.2]
    exact (Cert.Bridge.result_eq_reference _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
